-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 41
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .bf16⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v15) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  One GraphSAGE layer with mean aggregation and row normalisation, as a function of its arrays.

  For node r the layer's row before normalisation is
      pre r q = (Σ_k (Ms (r,k) / max (deg r) 1) · W_l (q,k) + b q) + Σ_k X (r,k) · W_r (q,k),
  where Ms holds the sums of the neighbours' features and deg the number of neighbours, and the result is the row
  divided by its Euclidean norm, the norm floored at a small positive constant:
      out r q = pre r q / max (√(Σ_q' pre r q' · pre r q')) ε.
  Everything is read on the extended reals, where a quotient by a divisor that is not zero is the product with the
  inverse. The divisor max (deg r) 1 is at least one, so scaling a neighbour sum by the reciprocal 1 / max (deg r) 1
  is the same as dividing it; and sums may be regrouped freely (addition of extended reals is commutative and
  associative). These two facts are all that relate the two arrangements of the row met below.
-/
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx
open scoped BigOperators

/-- A row divided by its Euclidean norm, the norm floored at `ε`. -/
def rowNormalize {n : Nat} (f : Fin n → EReal) (ε : EReal) (q : Fin n) : EReal :=
  Ideal.div (f q) (max (Ideal.sqrt (∑ q' : Fin n, f q' * f q')) ε)

/-- The shapes: node features (and neighbour sums), a weight matrix, the bias, one number per node. -/
abbrev SFeat : Shape := ⟨2, ![100000, 128]⟩
abbrev SWeight : Shape := ⟨2, ![128, 128]⟩
abbrev SBias : Shape := ⟨1, ![128]⟩
abbrev SNode : Shape := ⟨1, ![100000]⟩

/-- Row `r` of the layer before normalisation: the mean of the neighbours' features through `W_l`, plus the bias,
    plus the node's own features through `W_r` (the weight matrices indexed (output, input)). -/
def layerRow (Ms : SFeat.Idx → EReal) (Dg : SNode.Idx → EReal) (X : SFeat.Idx → EReal) (Wl : SWeight.Idx → EReal)
    (Bv : SBias.Idx → EReal) (Wr : SWeight.Idx → EReal) (r : Fin 100000) (q : Fin 128) : EReal :=
  ((∑ k : Fin 128, Ideal.div (Ms (ix2 r k)) (max (Dg (ix1 r)) 1) * Wl (ix2 q k)) + Bv (ix1 q))
    + ∑ k : Fin 128, X (ix2 r k) * Wr (ix2 q k)

/-- The layer: every row normalised, the norm floored at the f32 number nearest 1e-12. -/
def layer (Ms : SFeat.Idx → EReal) (Dg : SNode.Idx → EReal) (X : SFeat.Idx → EReal) (Wl : SWeight.Idx → EReal)
    (Bv : SBias.Idx → EReal) (Wr : SWeight.Idx → EReal) : SFeat.Idx → EReal :=
  fun i => rowNormalize (layerRow Ms Dg X Wl Bv Wr (i 0)) (Ideal.ofBits .f32 0x2B8CBCCC#32) (i 1)

theorem layer_apply (Ms : SFeat.Idx → EReal) (Dg : SNode.Idx → EReal) (X : SFeat.Idx → EReal) (Wl : SWeight.Idx → EReal)
    (Bv : SBias.Idx → EReal) (Wr : SWeight.Idx → EReal) (r : Fin 100000) (q : Fin 128) :
    layer Ms Dg X Wl Bv Wr (ix2 r q) = rowNormalize (layerRow Ms Dg X Wl Bv Wr r) (Ideal.ofBits .f32 0x2B8CBCCC#32) q := rfl

/-- A degree clamped below at one is not zero. -/
theorem max_one_ne_zero (d : EReal) : max d 1 ≠ 0 := by
  have h : (1 : EReal) ≤ max d 1 := le_max_right _ _
  intro e; rw [e] at h; exact absurd h (by simp)

/-- The other arrangement of the row: each neighbour sum first SCALED by the reciprocal of the clamped degree, the two
    products added, the bias added last. It is the same row: the scaling is the division (the divisor is not zero), and
    the three summands are regrouped. -/
theorem layerRow_of_scaled (Ms : SFeat.Idx → EReal) (Dg : SNode.Idx → EReal) (X : SFeat.Idx → EReal) (Wl : SWeight.Idx → EReal)
    (Bv : SBias.Idx → EReal) (Wr : SWeight.Idx → EReal) (r : Fin 100000) (q : Fin 128) :
    ((∑ k : Fin 128, (Ms (ix2 r k) * Ideal.div 1 (max (Dg (ix1 r)) 1)) * Wl (ix2 q k))
        + ∑ k : Fin 128, X (ix2 r k) * Wr (ix2 q k)) + Bv (ix1 q)
      = layerRow Ms Dg X Wl Bv Wr r q := by
  unfold layerRow
  rw [add_right_comm]
  refine congrArg (· + _) (congrArg (· + _) (Finset.sum_congr rfl fun k _ => ?_))
  rw [Ideal.mul_one_div (max_one_ne_zero _)]

end Cert.Sage

end
-- ==== Proof.ReferenceIsLayer.lean ====
/-
  The reference program's result is the layer of SageSpec.lean.

  Read one operation at a time, the reference divides each neighbour sum by the node's degree clamped below at one,
  multiplies by the transposed `W_l`, adds the bias row, adds the product of the features with the transposed `W_r`,
  and divides each row by the larger of its Euclidean norm and the floor. Entry (k, q) of a transposed weight matrix
  is entry (q, k) of the matrix, the constant one is the extended real 1, and the sum of squares starts from zero.
-/
import proofs.«123297_j10892037063139_2_alg».proof.Proof.Gen.ReferenceIdeal.Read
import proofs.«123297_j10892037063139_2_alg».proof.Proof.SageSpec

noncomputable section

namespace Cert.Sage.Reference

open Cert.ReferenceIdeal Cert.ReferenceIdeal.Read Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The reference's divisor at node `r`: the degree clamped below at one. -/
theorem clamped_degree (r : Fin 100000) :
    val_main_v19 (F := Ideal) x1 (ix1 r) = max (val_main_v17 (F := Ideal) x1 (ix1 r)) 1 := by
  rw [val_main_v19_apply, val_main_v18_apply, val_main_cst_3_apply]
  show max _ (Ideal.ofBits .f32 0x3F800000#32) = _
  rw [Ideal.ofBits_one_f32]

/-- The reference's row before normalisation is the layer's. -/
theorem pre_eq (r : Fin 100000) (q : Fin 128) :
    val_main_v30 (F := Ideal) x0 x1 x2 x3 x4 (ix2 r q)
      = layerRow (val_main_v13 (F := Ideal) x0 x1) (val_main_v17 (F := Ideal) x1) x0 x2 x3 x4 r q := by
  rw [val_main_v30_apply, val_main_v27_apply, val_main_v24_apply, val_main_v26_apply, val_main_v25_apply, val_main_v29_apply]
  unfold layerRow
  refine congrArg₂ (· + ·) (congrArg₂ (· + ·) (Finset.sum_congr rfl fun k _ => ?_) ?_) (Finset.sum_congr rfl fun k _ => ?_)
  · rw [val_main_v22_apply, val_main_v21_apply, val_main_v20_apply, val_main_v23_apply]
    have e1 : lidx_main_v24 (ix2 r q) k = ix2 r k := funext fun a => by
      match a with | ⟨0, _⟩ => rfl | ⟨1, _⟩ => rfl
    have e2 : idx_main_v20 (idx_main_v21 (lidx_main_v24 (ix2 r q) k)) = ix1 r := funext fun a => by
      match a with | ⟨0, _⟩ => rfl
    have e3 : idx_main_v23 (ridx_main_v24 (ix2 r q) k) = ix2 q k := funext fun a => by
      match a with | ⟨0, _⟩ => rfl | ⟨1, _⟩ => rfl
    rw [e2, e1, e3, clamped_degree]
    rfl
  · exact congrArg x3 (funext fun a => by match a with | ⟨0, _⟩ => rfl)
  · rw [val_main_v28_apply]
    have e1 : lidx_main_v29 (ix2 r q) k = ix2 r k := funext fun a => by
      match a with | ⟨0, _⟩ => rfl | ⟨1, _⟩ => rfl
    have e3 : idx_main_v28 (ridx_main_v29 (ix2 r q) k) = ix2 q k := funext fun a => by
      match a with | ⟨0, _⟩ => rfl | ⟨1, _⟩ => rfl
    rw [e1, e3]

/-- The reference's result is the layer of the neighbour sums and degrees it computes. -/
theorem result_eq :
    val_main_v38 (F := Ideal) x0 x1 x2 x3 x4
      = layer (val_main_v13 (F := Ideal) x0 x1) (val_main_v17 (F := Ideal) x1) x0 x2 x3 x4 := by
  funext i
  obtain ⟨r, q, rfl⟩ : ∃ (r : Fin 100000) (q : Fin 128), i = ix2 r q := ⟨i 0, i 1, eq_ix2 i⟩
  rw [layer_apply]
  unfold rowNormalize
  rw [val_main_v38_apply, val_main_v37_apply, val_main_v36_apply, val_main_v35_apply, val_main_cst_5_apply,
    val_main_v34_apply, val_main_v33_apply, val_main_v32_apply, val_main_cst_4_apply, pre_eq]
  simp only [Ideal.hostDivf_def, Ideal.maximumf_def, Ideal.hostUnary_sqrt_def, Ideal.ofBits_def, Ideal.ofBits_zero_f32, zero_add]
  have hs : (∑ k : Fin 128, val_main_v31 (F := Ideal) x0 x1 x2 x3 x4 (idx_main_v32 (idx_main_v33 (idx_main_v37 (ix2 r q))) k))
      = ∑ q' : Fin 128, layerRow (val_main_v13 (F := Ideal) x0 x1) (val_main_v17 (F := Ideal) x1) x0 x2 x3 x4 r q'
          * layerRow (val_main_v13 (F := Ideal) x0 x1) (val_main_v17 (F := Ideal) x1) x0 x2 x3 x4 r q' :=
    Finset.sum_congr rfl fun k _ => by
      rw [val_main_v31_apply]
      have e : idx_main_v32 (idx_main_v33 (idx_main_v37 (ix2 r q))) k = ix2 r k := funext fun a => by
        match a with | ⟨0, _⟩ => rfl | ⟨1, _⟩ => rfl
      rw [e, pre_eq]
      rfl
  rw [hs]

end Cert.Sage.Reference

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.BlockPayload.lean ====
/-
  What the kernel body stores for one block of 4000 nodes, entry by entry.

  The body scales the block's neighbour sums by the block's column of reciprocal degrees, multiplies the result and the
  block's own features by the two (already transposed) weight matrices on the matrix unit, starting from zero, adds
  the two products, adds the bias row, and divides each row by the larger of its Euclidean norm and the floor. On the
  extended reals the roundings to the short float format are the identity, a matrix product from zero is the plain sum
  of products, and a row sum from zero is the plain sum; so entry (p, q) of what is stored is the normalised row p of
      (Σ_k (ms (p,k) · inv p) · wl (k,q) + Σ_k xs (p,k) · wr (k,q)) + b q.
-/
import proofs.«123297_j10892037063139_2_alg».proof.Proof.Gen.KernelIdeal.Skeleton
import proofs.«123297_j10892037063139_2_alg».proof.Proof.SageSpec
import proofs.«123297_j10892037063139_2_alg».proof.Proof.LibDot
import proofs.«123297_j10892037063139_2_alg».proof.Proof.LibKeepdims
import proofs.«123297_j10892037063139_2_alg».proof.Proof.LibRowReduce
import Idealize.ShloMosaic.Lib.Pipeline.Value
import Idealize.ShloMosaic.Lib.ValueLayout

noncomputable section

namespace Cert.Sage.Kernel

open Cert.KernelIdeal Cert.KernelIdeal.Gen Idealize.ShloMosaic Idealize.ShloMosaic.ValueIdx
open scoped BigOperators

variable (ms : FVec Ideal S4000x128 .f32) (inv : FVec Ideal S4000x1 .f32) (xs : FVec Ideal S4000x128 .f32)
  (wl wr : FVec Ideal S128x128 .f32) (b : FVec Ideal S1x128 .f32)

/-- Row `p` of the block before normalisation, as a function of the column. -/
def blockRow (p : Fin 4000) (q : Fin 128) : EReal :=
  ((∑ k : Fin 128, (ms (ix2 p k) * inv (ix2 p (0 : Fin 1))) * wl (ix2 k q)) + ∑ k : Fin 128, xs (ix2 p k) * wr (ix2 k q))
    + b (ix2 (0 : Fin 1) q)

/-- The block before normalisation, as the body's operations: the two products from zero, added, plus the bias row. -/
def blockPre : FVec Ideal S4000x128 .f32 :=
  addf (addf
      (matmul dot_S4000x128_S128x128_S4000x128_1_0_0_1_n_n none
        (truncf .bf16 (mulf (shapeCast S4000x128 ms shapeCasts_S4000x128_S4000x128)
          (broadcastTo S4000x128 (shapeCast S4000x1 inv shapeCasts_S4000x1_S4000x1) broadcasts_S4000x1_S4000x128)) bitsLt_bf16_f32)
        (truncf .bf16 (shapeCast S128x128 wl shapeCasts_S128x128_S128x128) bitsLt_bf16_f32)
        (constant S4000x128 .f32 0x00000000#32))
      (matmul dot_S4000x128_S128x128_S4000x128_1_0_0_1_n_n none
        (truncf .bf16 xs bitsLt_bf16_f32)
        (truncf .bf16 (shapeCast S128x128 wr shapeCasts_S128x128_S128x128) bitsLt_bf16_f32)
        (constant S4000x128 .f32 0x00000000#32)))
    (broadcastTo S4000x128 (shapeCast S1x128 b shapeCasts_S1x128_S1x128) broadcasts_S1x128_S4000x128)

/-- The stored value is the block divided, row by row, by the floored norm of the row. -/
theorem payload_eq :
    k0_pay1 (F := Ideal) ms inv xs wl wr b
      = divf (blockPre ms inv xs wl wr b)
          (broadcastTo S4000x128
            (maximumf
              (sqrt (shapeCast S4000x1
                (multiReduction .add [1] S4000 (mulf (blockPre ms inv xs wl wr b) (blockPre ms inv xs wl wr b)) 0x00000000#32
                  reduces_S4000x128_S4000 (.inl rfl) rfl) shapeCasts_S4000_S4000x1))
              (broadcast S4000x1 (Scalar.ofBits .f32 0x2B8CBCCC#32)))
            broadcasts_S4000x1_S4000x128) := rfl

/-- Entry (p, q) of the block before normalisation. -/
theorem blockPre_apply (p : Fin 4000) (q : Fin 128) :
    blockPre ms inv xs wl wr b (ix2 p q) = blockRow ms inv xs wl wr b p q := by
  unfold blockPre blockRow
  rw [addf_apply, addf_apply]
  refine congrArg₂ (· + ·) (congrArg₂ (· + ·) ?_ ?_) ?_
  · refine (LibDot.matmul_zero_apply dot_S4000x128_S128x128_S4000x128_1_0_0_1_n_n_wf none _ _ p q).trans (Finset.sum_congr rfl fun k _ => ?_)
    rw [truncf_apply, truncf_apply, mulf_apply, shapeCast_self, shapeCast_self, shapeCast_self, broadcastTo_a1_ab_apply]
  · refine (LibDot.matmul_zero_apply dot_S4000x128_S128x128_S4000x128_1_0_0_1_n_n_wf none _ _ p q).trans (Finset.sum_congr rfl fun k _ => ?_)
    rw [truncf_apply, truncf_apply, shapeCast_self]
  · rw [shapeCast_self]
    exact broadcastTo_1b_ab_apply b _ p q

/-- Entry (p, q) of what the body stores: row p of the block, normalised, at column q. -/
theorem payload_apply (p : Fin 4000) (q : Fin 128) :
    k0_pay1 (F := Ideal) ms inv xs wl wr b (ix2 p q)
      = rowNormalize (blockRow ms inv xs wl wr b p) (Ideal.ofBits .f32 0x2B8CBCCC#32) q := by
  have hs : multiReduction .add [1] S4000 (mulf (blockPre ms inv xs wl wr b) (blockPre ms inv xs wl wr b)) 0x00000000#32
        reduces_S4000x128_S4000 (.inl rfl) rfl (ix1 p)
      = ∑ q' : Fin 128, blockRow ms inv xs wl wr b p q' * blockRow ms inv xs wl wr b p q' :=
    (LibRowReduce.rowSum_apply _ reduces_S4000x128_S4000 (.inl rfl) rfl p).trans
      (Finset.sum_congr rfl fun k _ => by rw [mulf_apply, blockPre_apply])
  rw [payload_eq, divf_apply, blockPre_apply, broadcastTo_a1_ab_apply, maximumf_apply]
  unfold rowNormalize
  show Ideal.div _ (max (Ideal.sqrt (shapeCast S4000x1 _ shapeCasts_S4000_S4000x1 (ix2 p (0 : Fin 1)))) (Ideal.ofBits .f32 0x2B8CBCCC#32)) = _
  rw [shapeCast_a_a1_apply, hs]

/-- An entry of the stored block is the layer's entry at the node the block's row stands for, once each block operand
    is known to hold the matching entries of the layer's arrays: the block's neighbour sums and features are rows of
    the arrays, its column of reciprocals is one over the clamped degree, its two weight operands are the transposed
    weight matrices, its bias operand is the bias. -/
theorem block_entry (Ms : SFeat.Idx → EReal) (D0 : SNode.Idx → EReal) (X : SFeat.Idx → EReal) (Wl : SWeight.Idx → EReal)
    (Bv : SBias.Idx → EReal) (Wr : SWeight.Idx → EReal) (p : Fin 4000) (q : Fin 128) (r : Fin 100000)
    (hms : ∀ k : Fin 128, ms (ix2 p k) = Ms (ix2 r k))
    (hinv : inv (ix2 p (0 : Fin 1)) = Ideal.div 1 (max (D0 (ix1 r)) 1))
    (hxs : ∀ k : Fin 128, xs (ix2 p k) = X (ix2 r k))
    (hwl : ∀ k q : Fin 128, wl (ix2 k q) = Wl (ix2 q k))
    (hwr : ∀ k q : Fin 128, wr (ix2 k q) = Wr (ix2 q k))
    (hb : ∀ q : Fin 128, b (ix2 (0 : Fin 1) q) = Bv (ix1 q)) :
    k0_pay1 (F := Ideal) ms inv xs wl wr b (ix2 p q) = layer Ms D0 X Wl Bv Wr (ix2 r q) := by
  rw [payload_apply, layer_apply]
  refine congrArg (fun f => rowNormalize f (Ideal.ofBits .f32 0x2B8CBCCC#32) q) (funext fun q' => ?_)
  unfold blockRow
  rw [hinv, hb]
  simp only [hms, hxs, hwl, hwr]
  exact layerRow_of_scaled Ms D0 X Wl Bv Wr r q'

end Cert.Sage.Kernel

end
-- ==== Proof.OperandArrays.lean ====
/-
  What the kernel finds in its operand arrays: the host operations before the launch, read back.

  The neighbour sums are the scatter-add, by target node, of the source nodes' feature rows; the features pass
  through the short float format on the way, which on the extended reals changes nothing, so the array is the very
  array of neighbour sums the reference computes. The column of reciprocals holds, for node r, one divided by the
  degree clamped below at one (the same clamped degree as the reference's). The two weight operands are the transposed
  weight matrices and the bias operand is the bias as a one-row matrix.
-/
import proofs.«123297_j10892037063139_2_alg».proof.Proof.Gen.KernelIdeal.Frame
import proofs.«123297_j10892037063139_2_alg».proof.Proof.ReferenceIsLayer
import proofs.«123297_j10892037063139_2_alg».proof.Proof.LibKeepdims
import Idealize.ShloMosaic.Lib.StableHlo.Run
import Idealize.ShloMosaic.Lib.ValueLayout
import Idealize.ShloMosaic.Lib.IdealHost

noncomputable section

namespace Cert.Sage.Kernel

open Cert.KernelIdeal Cert.KernelIdeal.Gen Idealize.ShloMosaic Idealize.ShloMosaic.TcCoe Idealize.SL.Sem
open Idealize.ShloMosaic.StableHlo Idealize.ShloMosaic.ValueIdx

/-- Gathering rows of an array that was first rounded to the short format, then widening the rows back, is gathering
    the rows of the array itself: on the extended reals both changes of format are the identity. -/
theorem gather_through_short {s si u : Shape} {w : Nat} (d : GatherDims s si u) (x : FVec Ideal s .f32) (idx : IVec si w)
    (h : FTy.bits .bf16 < FTy.bits .f32) :
    extf .f32 (Host.gather d (truncf .bf16 x h) idx) h = Host.gather d x idx := rfl

variable (m : (ℓ : Loc nD τ sig) → Buf (Elt Ideal) ℓ) (c : Dev nD)

set_option maxHeartbeats 1000000 in
/-- The neighbour sums the kernel is launched on are the reference's. -/
theorem nbrSums_eq :
    (V m c main_v15 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results_simp
  rw [gather_through_short]
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1
    Cert.ReferenceIdeal.Read.val_main_v0 Cert.ReferenceIdeal.Read.val_main_cst Cert.ReferenceIdeal.Read.val_main_c Cert.ReferenceIdeal.Read.val_main_c_0
  rfl

set_option maxHeartbeats 1000000 in
/-- The column of reciprocals: one over the reference's clamped degree, node by node, as a one-column matrix. -/
theorem invDeg_eq :
    (V m c main_v24 : S100000x1.Idx → EReal)
      = shapeCast S100000x1 (Host.divf (broadcastInDim S100000 ![] bcast_S_S100000 (constant (F := Ideal) S_ .f32 0x3F800000#32))
          (Cert.ReferenceIdeal.Read.val_main_v19 (F := Ideal) (m ((c : Thread nD τ).loc main_arg1)))) shapeCasts_S100000_S100000x1 := by
  dsimp only [Gen.V, Gen.hostOps0]
  after_results_simp
  unfold Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14
    Cert.ReferenceIdeal.Read.val_main_v3 Cert.ReferenceIdeal.Read.val_main_v2 Cert.ReferenceIdeal.Read.val_main_cst_1 Cert.ReferenceIdeal.Read.val_main_cst_2 Cert.ReferenceIdeal.Read.val_main_cst_3
  rfl

set_option maxHeartbeats 1000000 in
/-- The first weight operand: `W_l` transposed. -/
theorem wlT_eq :
    (V m c main_v25 : S128x128.Idx → EReal)
      = transpose S128x128 [1, 0] (m ((c : Thread nD τ).loc main_arg2)) transposes_S128x128_S128x128_1_0 := by
  dsimp only [Gen.V, Gen.hostOps0]
  after_results_simp

set_option maxHeartbeats 1000000 in
/-- The second weight operand: `W_r` transposed. -/
theorem wrT_eq :
    (V m c main_v26 : S128x128.Idx → EReal)
      = transpose S128x128 [1, 0] (m ((c : Thread nD τ).loc main_arg4)) transposes_S128x128_S128x128_1_0 := by
  dsimp only [Gen.V, Gen.hostOps0]
  after_results_simp

set_option maxHeartbeats 1000000 in
/-- The bias operand: the bias as a one-row matrix. -/
theorem biasRow_eq :
    (V m c main_v27 : S1x128.Idx → EReal)
      = shapeCast S1x128 (m ((c : Thread nD τ).loc main_arg3)) shapeCasts_S128_S1x128 := by
  dsimp only [Gen.V, Gen.hostOps0]
  after_results_simp
  rfl

/-- Row `r` of the column of reciprocals: one over the degree clamped below at one. -/
theorem invDeg_apply (r : Fin 100000) :
    (V m c main_v24 : S100000x1.Idx → EReal) (ix2 r (0 : Fin 1))
      = Ideal.div 1 (max (Cert.ReferenceIdeal.Read.val_main_v17 (F := Ideal) (m ((c : Thread nD τ).loc main_arg1)) (ix1 r)) 1) := by
  rw [invDeg_eq, shapeCast_a_a1_apply, hostDivf_apply, Cert.Sage.Reference.clamped_degree,
    broadcastInDim_scalar_apply, constant_apply, Ideal.ofBits_one_f32]

/-- Entry (k, q) of the first weight operand is entry (q, k) of `W_l`. -/
theorem wlT_apply (k q : Fin 128) :
    (V m c main_v25 : S128x128.Idx → EReal) (ix2 k q) = (m ((c : Thread nD τ).loc main_arg2) : S128x128.Idx → EReal) (ix2 q k) := by
  rw [wlT_eq]
  exact transpose_ix2_apply _ _ k q

/-- Entry (k, q) of the second weight operand is entry (q, k) of `W_r`. -/
theorem wrT_apply (k q : Fin 128) :
    (V m c main_v26 : S128x128.Idx → EReal) (ix2 k q) = (m ((c : Thread nD τ).loc main_arg4) : S128x128.Idx → EReal) (ix2 q k) := by
  rw [wrT_eq]
  exact transpose_ix2_apply _ _ k q

/-- Entry (0, q) of the bias operand is entry q of the bias. -/
theorem biasRow_apply (q : Fin 128) :
    (V m c main_v27 : S1x128.Idx → EReal) (ix2 (0 : Fin 1) q) = (m ((c : Thread nD τ).loc main_arg3) : S128.Idx → EReal) (ix1 q) := by
  rw [biasRow_eq]
  exact shapeCast_a_1a_apply _ _ 0 q

end Cert.Sage.Kernel

end
-- ==== Proof.WholeArray.lean ====
/-
  From the blocks to the whole array, and the kernel's run.

  The grid has 25 points. At point t the kernel is given rows 4000·t … 4000·t + 3999 of the neighbour sums, of the
  features and of the column of reciprocals, and the two weight operands and the bias operand whole; it writes rows
  4000·t … 4000·t + 3999 of the result. Row p of the block at point t is therefore node r = 4000·t + p, and by the
  entry-by-entry reading of the stored block the block written at t is that block of rows of the layer. The 25 blocks
  tile the 100000 rows (row r lies in the block of point r / 4000), so after the run the result array is the layer.
-/
import proofs.«123297_j10892037063139_2_alg».proof.Proof.Gen.KernelIdeal.Value
import proofs.«123297_j10892037063139_2_alg».proof.Proof.BlockPayload
import proofs.«123297_j10892037063139_2_alg».proof.Proof.OperandArrays
import Idealize.ShloMosaic.Lib.Pipeline.Value

noncomputable section

namespace Cert.Sage.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block each operand is given at grid point `t`: block `t` along the rows for the neighbour sums, the features,
    the reciprocals and the result; the one block there is for the weights and the bias. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the arrays the program is launched on, with the neighbour sums and degrees computed from them. -/
def result (c : Dev nD) : S100000x128.Idx → EReal :=
  layer (Cert.ReferenceIdeal.Read.val_main_v13 (F := Ideal) (m ((c : Thread nD τ).loc main_arg0)) (m ((c : Thread nD τ).loc main_arg1)))
    (Cert.ReferenceIdeal.Read.val_main_v17 (F := Ideal) (m ((c : Thread nD τ).loc main_arg1)))
    (m ((c : Thread nD τ).loc main_arg0)) (m ((c : Thread nD τ).loc main_arg2)) (m ((c : Thread nD τ).loc main_arg3))
    (m ((c : Thread nD τ).loc main_arg4))

/-! ## Each operand's block at a point, as entries of its array -/

/-- Row `p` of the neighbour-sum block at point `t` is row `4000·t + p` of the neighbour sums. -/
theorem nbrSums_block (c : Dev nD) (t : Fin cfg0.N) (p : Fin 4000) (k : Fin 128) (r : Fin 100000) (hr : r.val = t.val * 4000 + p.val) :
    (iblk m c 0 t : Vec Ideal S4000x128 .f32) (ix2 p k) = (V m c main_v15 : S100000x128.Idx → EReal) (ix2 r k) := by
  obtain ⟨h0, h1, -⟩ := block_indices t
  unfold iblk
  rw [View.read_apply, cast_eq]
  have he : ((cfg0.win 0).blk t).view.emb (ix2 p k) = (ix2 r k : S100000x128.Idx) := funext fun a => Fin.ext (by
    match a with
    | ⟨0, _⟩ => show win0_0.index t (0 : Fin 2) * 4000 + 1 * p.val = r.val; rw [h0, hr]; omega
    | ⟨1, _⟩ => show win0_0.index t (1 : Fin 2) * 128 + 1 * k.val = k.val; rw [h1]; omega)
  rw [he]

/-- Row `p` of the feature block at point `t` is row `4000·t + p` of the features. -/
theorem feat_block (c : Dev nD) (t : Fin cfg0.N) (p : Fin 4000) (k : Fin 128) (r : Fin 100000) (hr : r.val = t.val * 4000 + p.val) :
    (iblk m c 1 t : Vec Ideal S4000x128 .f32) (ix2 p k) = (V m c main_arg0 : S100000x128.Idx → EReal) (ix2 r k) := by
  obtain ⟨-, -, h0, h1, -⟩ := block_indices t
  unfold iblk
  rw [View.read_apply, cast_eq]
  have he : ((cfg0.win 1).blk t).view.emb (ix2 p k) = (ix2 r k : S100000x128.Idx) := funext fun a => Fin.ext (by
    match a with
    | ⟨0, _⟩ => show win0_1.index t (0 : Fin 2) * 4000 + 1 * p.val = r.val; rw [h0, hr]; omega
    | ⟨1, _⟩ => show win0_1.index t (1 : Fin 2) * 128 + 1 * k.val = k.val; rw [h1]; omega)
  rw [he]

/-- Row `p` of the block of reciprocals at point `t` is row `4000·t + p` of the column of reciprocals. -/
theorem invDeg_block (c : Dev nD) (t : Fin cfg0.N) (p : Fin 4000) (r : Fin 100000) (hr : r.val = t.val * 4000 + p.val) :
    (iblk m c 2 t : Vec Ideal S4000x1 .f32) (ix2 p (0 : Fin 1)) = (V m c main_v24 : S100000x1.Idx → EReal) (ix2 r (0 : Fin 1)) := by
  obtain ⟨-, -, -, -, h0, h1, -⟩ := block_indices t
  unfold iblk
  rw [View.read_apply, cast_eq]
  have he : ((cfg0.win 2).blk t).view.emb (ix2 p (0 : Fin 1)) = (ix2 r (0 : Fin 1) : S100000x1.Idx) := funext fun a => Fin.ext (by
    match a with
    | ⟨0, _⟩ => show win0_2.index t (0 : Fin 2) * 4000 + 1 * p.val = r.val; rw [h0, hr]; omega
    | ⟨1, _⟩ => show win0_2.index t (1 : Fin 2) * 1 + 1 * 0 = 0; rw [h1])
  rw [he]

/-- The first weight operand's block is the operand. -/
theorem wl_block (c : Dev nD) (t : Fin cfg0.N) (k q : Fin 128) :
    (iblk m c 3 t : Vec Ideal S128x128 .f32) (ix2 k q) = (V m c main_v25 : S128x128.Idx → EReal) (ix2 k q) := by
  obtain ⟨-, -, -, -, -, -, h0, h1, -⟩ := block_indices t
  unfold iblk
  rw [View.read_apply, cast_eq]
  have he : ((cfg0.win 3).blk t).view.emb (ix2 k q) = (ix2 k q : S128x128.Idx) := funext fun a => Fin.ext (by
    match a with
    | ⟨0, _⟩ => show win0_3.index t (0 : Fin 2) * 128 + 1 * k.val = k.val; rw [h0]; omega
    | ⟨1, _⟩ => show win0_3.index t (1 : Fin 2) * 128 + 1 * q.val = q.val; rw [h1]; omega)
  rw [he]

/-- The second weight operand's block is the operand. -/
theorem wr_block (c : Dev nD) (t : Fin cfg0.N) (k q : Fin 128) :
    (iblk m c 4 t : Vec Ideal S128x128 .f32) (ix2 k q) = (V m c main_v26 : S128x128.Idx → EReal) (ix2 k q) := by
  obtain ⟨-, -, -, -, -, -, -, -, h0, h1, -⟩ := block_indices t
  unfold iblk
  rw [View.read_apply, cast_eq]
  have he : ((cfg0.win 4).blk t).view.emb (ix2 k q) = (ix2 k q : S128x128.Idx) := funext fun a => Fin.ext (by
    match a with
    | ⟨0, _⟩ => show win0_4.index t (0 : Fin 2) * 128 + 1 * k.val = k.val; rw [h0]; omega
    | ⟨1, _⟩ => show win0_4.index t (1 : Fin 2) * 128 + 1 * q.val = q.val; rw [h1]; omega)
  rw [he]

/-- The bias operand's block is the operand. -/
theorem bias_block (c : Dev nD) (t : Fin cfg0.N) (q : Fin 128) :
    (iblk m c 5 t : Vec Ideal S1x128 .f32) (ix2 (0 : Fin 1) q) = (V m c main_v27 : S1x128.Idx → EReal) (ix2 (0 : Fin 1) q) := by
  obtain ⟨-, -, -, -, -, -, -, -, -, -, h0, h1, -⟩ := block_indices t
  unfold iblk
  rw [View.read_apply, cast_eq]
  have he : ((cfg0.win 5).blk t).view.emb (ix2 (0 : Fin 1) q) = (ix2 (0 : Fin 1) q : S1x128.Idx) := funext fun a => Fin.ext (by
    match a with
    | ⟨0, _⟩ => show win0_5.index t (0 : Fin 2) * 1 + 1 * 0 = 0; rw [h0]
    | ⟨1, _⟩ => show win0_5.index t (1 : Fin 2) * 128 + 1 * q.val = q.val; rw [h1]; omega)
  rw [he]

/-! ## What a point writes back, the cover, the array, the run -/

/-- What point `t` writes back is block `t` of any array `G` whose rows `4000·t + p` are what the body stores in its
    rows `p`. -/
theorem flushed_of (c : Dev nD) (t : Fin cfg0.N) (G : S100000x128.Idx → EReal)
    (hG : ∀ (p : Fin 4000) (q : Fin 128) (r : Fin 100000), r.val = t.val * 4000 + p.val →
      k0_pay1 (F := Ideal) (iblk m c 0 t) (iblk m c 2 t) (iblk m c 1 t) (iblk m c 3 t) (iblk m c 4 t) (iblk m c 5 t) (ix2 p q)
        = G (ix2 r q)) :
    (dats m 0 c).flushed 6 t = ((cfg0.win 6).blk t).view.read (Elt Ideal) G := by
  rw [Cert.KernelIdeal.Value.flushed6]
  unfold out0_6
  rw [View.canon_unit_zero zero_offsets]
  simp only [View.ld_unit_zero (S := S4000x128) zero_offsets, View.ld_unit_zero (S := S4000x1) zero_offsets,
    View.ld_unit_zero (S := S128x128) zero_offsets, View.ld_unit_zero (S := S1x128) zero_offsets]
  refine funext fun (j : S4000x128.Idx) => ?_
  obtain ⟨p, q, rfl⟩ : ∃ (p : Fin 4000) (q : Fin 128), j = ix2 p q := ⟨j 0, j 1, eq_ix2 j⟩
  have ht : t.val < 25 := by have h := t.isLt; have hN : cfg0.N = 25 := N_0; omega
  have hp : p.val < 4000 := p.isLt
  obtain ⟨r, hr⟩ : ∃ r : Fin 100000, r.val = t.val * 4000 + p.val := ⟨⟨t.val * 4000 + p.val, by omega⟩, rfl⟩
  obtain ⟨-, -, -, -, -, -, -, -, -, -, -, -, h0, h1⟩ := block_indices t
  have he : ((cfg0.win 6).blk t).view.emb (ix2 p q) = (ix2 r q : S100000x128.Idx) := funext fun a => Fin.ext (by
    match a with
    | ⟨0, _⟩ => show win0_6.index t (0 : Fin 2) * 4000 + 1 * p.val = r.val; rw [h0, hr]; omega
    | ⟨1, _⟩ => show win0_6.index t (1 : Fin 2) * 128 + 1 * q.val = q.val; rw [h1]; omega)
  rw [View.read_apply, cast_eq, he]
  exact hG p q r hr

/-- What point `t` writes back is block `t` of the layer. -/
theorem flushed_eq (c : Dev nD) (t : Fin cfg0.N) :
    (dats m 0 c).flushed 6 t = ((cfg0.win 6).blk t).view.read (Elt Ideal) (result m c) :=
  flushed_of m c t (result m c) fun p q r hr =>
    block_entry (iblk m c 0 t) (iblk m c 2 t) (iblk m c 1 t) (iblk m c 3 t) (iblk m c 4 t) (iblk m c 5 t)
      (Cert.ReferenceIdeal.Read.val_main_v13 (F := Ideal) (m ((c : Thread nD τ).loc main_arg0)) (m ((c : Thread nD τ).loc main_arg1)))
      (Cert.ReferenceIdeal.Read.val_main_v17 (F := Ideal) (m ((c : Thread nD τ).loc main_arg1)))
      (m ((c : Thread nD τ).loc main_arg0)) (m ((c : Thread nD τ).loc main_arg2)) (m ((c : Thread nD τ).loc main_arg3))
      (m ((c : Thread nD τ).loc main_arg4)) p q r
      (fun k => (nbrSums_block m c t p k r hr).trans (congrFun (nbrSums_eq m c) (ix2 r k)))
      ((invDeg_block m c t p r hr).trans (invDeg_apply m c r))
      (fun k => (feat_block m c t p k r hr).trans (congrFun (V_main_arg0 m c) (ix2 r k)))
      (fun k q' => (wl_block m c t k q').trans (wlT_apply m c k q'))
      (fun k q' => (wr_block m c t k q').trans (wrT_apply m c k q'))
      (fun q' => (bias_block m c t q').trans (biasRow_apply m c q'))

/-- An index of the array is in point `t`'s block iff each coordinate is in the block's range on its axis. -/
theorem mem_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v28).slice (win0_6.rect t)).set ↔ _
  rw [View.set_slice_whole, Rect.mem_set_unit]
  exact Iff.rfl

/-- Every entry of the result array lies in the block of some point: row `r` in that of point `r / 4000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, htv⟩ : ∃ t : Fin cfg0.N, t.val = (i 0).val / 4000 := ⟨⟨(i 0).val / 4000, by rw [hN]; omega⟩, rfl⟩
  obtain ⟨-, -, -, -, -, -, -, -, -, -, -, -, h0, h1⟩ := block_indices t
  refine ⟨t, flush0_6 t, ?_⟩
  rw [mem_block]
  intro a
  match a with
  | ⟨0, _⟩ =>
    show win0_6.index t (0 : Fin 2) * 4000 ≤ (i 0).val ∧ (i 0).val < win0_6.index t (0 : Fin 2) * 4000 + 4000
    rw [h0, htv]; omega
  | ⟨1, _⟩ =>
    show win0_6.index t (1 : Fin 2) * 128 ≤ (i 1).val ∧ (i 1).val < win0_6.index t (1 : Fin 2) * 128 + 128
    rw [h1]; omega

/-- The result array after the run is the layer. -/
theorem final (c : Dev nD) : (dats m 0 c).arrAt 6 cfg0.N = result m c :=
  (dats m 0 c).arrAt_eq_of_cover 6 (result m c) (fun t _ => flushed_eq m c t) covered

/-- The kernel's run: it terminates with the result array at the layer of the launch arrays, which are unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Sage.Kernel

end
-- ==== Proof.lean ====
/-
  A GraphSAGE layer with mean aggregation, computed two ways, is one function on the extended reals.

  Both programs gather the source nodes' feature rows and add them up by target node (the neighbour sums), count each
  node's incoming edges (the degree) and clamp the count below at one. The reference then divides each neighbour sum
  by the clamped degree, applies `W_l` and the bias, adds the node's own features through `W_r`, and divides every
  row by the larger of its Euclidean norm and a small floor. The kernel instead multiplies each neighbour sum by the
  RECIPROCAL of the clamped degree, rounds its matrix operands to a shorter float format, adds the two matrix
  products first and the bias last, and works on blocks of 4000 nodes at a time.

  On the extended reals a change of float format is the identity; a quotient by a divisor that is not zero is the
  product with the inverse, and the clamped degree is at least one, so multiplying by its reciprocal is dividing by
  it; addition is commutative and associative, so the three summands may be grouped either way; and a matrix product
  or a row sum started from zero is the plain sum. Hence both results are the layer of SageSpec.lean, entry by entry
  (ReferenceIsLayer.lean for the reference; BlockPayload.lean, OperandArrays.lean and WholeArray.lean for the kernel).
  No finiteness of the inputs is needed for any of these laws. The idealised kernel is the kernel's own text read on
  the extended reals (nothing was rewritten), so there is nothing to preserve beyond that.
-/
import proofs.«123297_j10892037063139_2_alg».proof.Defs
import proofs.«123297_j10892037063139_2_alg».proof.Proof.Gen.Kernel
import proofs.«123297_j10892037063139_2_alg».proof.Proof.Gen.Kernel.Skeleton
import proofs.«123297_j10892037063139_2_alg».proof.Proof.Gen.Kernel.Launch
import proofs.«123297_j10892037063139_2_alg».proof.Proof.Gen.Kernel.Points
import proofs.«123297_j10892037063139_2_alg».proof.Proof.Gen.Kernel.Frame
import proofs.«123297_j10892037063139_2_alg».proof.Proof.Gen.KernelIdeal
import proofs.«123297_j10892037063139_2_alg».proof.Proof.Gen.KernelIdeal.Skeleton
import proofs.«123297_j10892037063139_2_alg».proof.Proof.Gen.KernelIdeal.Launch
import proofs.«123297_j10892037063139_2_alg».proof.Proof.Gen.KernelIdeal.Points
import proofs.«123297_j10892037063139_2_alg».proof.Proof.Gen.KernelIdeal.Frame
import proofs.«123297_j10892037063139_2_alg».proof.Proof.Gen.ReferenceIdeal
import proofs.«123297_j10892037063139_2_alg».proof.Proof.Gen.Pre_finite_inputs
import proofs.«123297_j10892037063139_2_alg».proof.Proof.Gen.KernelIdeal.Value
import proofs.«123297_j10892037063139_2_alg».proof.Proof.Gen.ReferenceIdeal.Run
import proofs.«123297_j10892037063139_2_alg».proof.Proof.Gen.ReferenceIdeal.Read
import proofs.«123297_j10892037063139_2_alg».proof.Proof.ReferenceIsLayer
import proofs.«123297_j10892037063139_2_alg».proof.Proof.WholeArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From arguments that agree, the kernel's result array and the reference's both end at the layer of those arguments. -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.Sage.Reference.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
